-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S512x2048 : Shape := ⟨2, ![512, 2048]⟩
abbrev S1x2048 : Shape := ⟨2, ![1, 2048]⟩
abbrev S1024x2048 : Shape := ⟨2, ![1024, 2048]⟩

abbrev nBuf : Space → Nat
  | .hbm => 7
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .bf16⟩
  | .hbm, ⟨5, _⟩ => ⟨S4096x4096, .bf16⟩
  | .hbm, ⟨6, _⟩ => ⟨S4096x4096, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .bf16 = 32 ∨ (Rect.block (s := S4096x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .bf16 = 32 ∨ (Rect.block (s := S4096x4096) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S4096x4096.size a
  hwx0_3 : ∀ i : grid0.Coords, EltTy.bits .f32 = 32 ∨ (Rect.block (s := S4096x4096) S1024x2048.size (cc0_transform_3 i) (hinb0_3 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Spec.lean ====
/-
  The quantized linear layer as ONE function of its three arguments, and the one fact about sums that joins the
  tiled computation to the whole one.

  For x and w of shape [4096, 4096] and a bias b of length 4096 the result at (r, q) is

      ( (∑ k < 4096, x(r, k) · w(k, q)) + b(q) ) · s

  over the extended reals, s being a fixed scale. A tiled computation reaches the inner sum in eight steps of 512
  contraction positions each: after the step over positions [512·j, 512·j + 512) it holds the partial sum over the
  positions below 512·(j + 1). A sum over an initial segment of the naturals extended by a further stretch is the sum
  over the segment plus the sum over the stretch; that needs only that addition of extended reals is commutative and
  associative, so no finiteness of the entries is used anywhere.
-/
import Idealize.ShloMosaic.PureOps.Ideal
import Idealize.ShloMosaic.Lib.ValueIdx

noncomputable section

open scoped BigOperators

namespace Cert.Spec

open Idealize.ShloMosaic Idealize.ShloMosaic.ValueIdx

/-- The shapes of the arguments. -/
abbrev Mat : Shape := ⟨2, ![4096, 4096]⟩
abbrev Row : Shape := ⟨1, ![4096]⟩

variable (X W : Mat.Idx → EReal) (b : Row.Idx → EReal)

/-- The product x(r, k) · w(k, q) at contraction position k; zero at positions past the contraction length, so that
    partial sums can be taken over initial segments of the naturals. -/
def term (r q : Fin 4096) (k : ℕ) : EReal :=
  if h : k < 4096 then X (ix2 r ⟨k, h⟩) * W (ix2 ⟨k, h⟩ q) else 0

/-- The partial sum of the products over the contraction positions below n. -/
def partialSum (r q : Fin 4096) (n : ℕ) : EReal := ∑ k ∈ Finset.range n, term X W r q k

/-- The whole inner product: the sum over every contraction position. -/
def inner (r q : Fin 4096) : EReal := ∑ k : Fin 4096, X (ix2 r k) * W (ix2 k q)

theorem partialSum_zero (r q : Fin 4096) : partialSum X W r q 0 = 0 := by
  unfold partialSum; rw [Finset.range_zero, Finset.sum_empty]

/-- Extending the segment by a stretch of 512 positions adds the sum over the stretch. -/
theorem partialSum_add_block (r q : Fin 4096) (n : ℕ) :
    partialSum X W r q (n + 512) = partialSum X W r q n + ∑ j : Fin 512, term X W r q (n + j.val) := by
  unfold partialSum
  rw [Finset.sum_range_add, Fin.sum_univ_eq_sum_range (fun j => term X W r q (n + j)) 512]

/-- The partial sum over all 4096 positions is the inner product. -/
theorem partialSum_full (r q : Fin 4096) : partialSum X W r q 4096 = inner X W r q := by
  unfold partialSum inner
  rw [← Fin.sum_univ_eq_sum_range (fun k => term X W r q k) 4096]
  refine Finset.sum_congr rfl fun k _ => ?_
  unfold term
  rw [dif_pos k.isLt]

/-- The product at an in-range position, with the position given as a number below 4096. -/
theorem term_eq (r q : Fin 4096) (n : ℕ) (k : Fin 4096) (h : k.val = n) :
    term X W r q n = X (ix2 r k) * W (ix2 k q) := by
  subst h
  unfold term
  rw [dif_pos k.isLt]

/-- ONE STEP of the tiled accumulation: the partial sum below 512·j, plus the sum over the 512 positions of block j of
    the tile entries' products (whatever spelling the tiles' entries come in, as long as each product is the term at
    its position), is the partial sum below 512·(j + 1). -/
theorem partialSum_step (r q : Fin 4096) (j : ℕ) (xt wt : Fin 512 → EReal)
    (h : ∀ k : Fin 512, xt k * wt k = term X W r q (512 * j + k.val)) :
    partialSum X W r q (512 * j) + ∑ k : Fin 512, xt k * wt k = partialSum X W r q (512 * (j + 1)) := by
  rw [show 512 * (j + 1) = 512 * j + 512 by ring, partialSum_add_block]
  exact congrArg (partialSum X W r q (512 * j) + ·) (Finset.sum_congr rfl fun k _ => h k)

/-- THE RESULT at (r, q): the inner product plus the bias entry, times the scale. -/
def result (s : EReal) : Mat.Idx → EReal :=
  fun i => (inner X W (i 0) (i 1) + b (ix1 (i 1))) * s

end Cert.Spec

end
-- ==== Proof.Pieces.lean ====
/-
  What one grid step of the tiled kernel leaves in the buffers it writes, as values.

  The kernel walks a grid of 4 x 2 x 8 points, the last axis running over eight blocks of 512 contraction positions.
  A [1024, 2048] accumulator is carried from one step to the next. Each step loads an x tile [1024, 512] and a w tile
  [512, 2048] and adds their product to the accumulator; the first step of a run of eight zeroes the accumulator
  first, and the last step of the run afterwards stores (accumulator + bias row) · scale into the output tile. The
  lemmas below say exactly this of the three kinds of step, for any float instance: every load and store goes through
  a whole buffer, so a load reads the buffer's contents and the last store's value is what the buffer holds.
-/
import proofs.«131412_j37280316129794_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Zero offsets on both axes. -/
theorem hz : (![0, 0] : Fin 2 → Nat) = fun _ => 0 := funext fun a => by fin_cases a <;> rfl

/-- At a first step of a run (contraction block 0) the body zeroes the carried accumulator, reads the zero block
    back, and leaves the zero block plus the product of the two loaded tiles. -/
theorem scratch_A (c : Dev nD) (i : grid0.Coords) (a3 : Memref sig .tc .vmem S1024x512 .bf16) (h3 : a3.IsWhole)
    (a4 : Memref sig .tc .vmem S512x2048 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : cond0_0 i) (hc1 : ¬cond0_1 i) (x0 : Vec F S1024x512 .bf16) (x1 : Vec F S512x2048 .bf16) (x2 : Vec F S1x2048 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x2048) hz, View.readCov_unit_zero (S := S1024x2048) _ hz]
  simp only [View.readAt_eq_ld, h3.read_unread, h4.read_unread, View.ld_unit_zero (S := S1024x512) hz, View.ld_unit_zero (S := S512x2048) hz, View.ld_unit_zero (S := S1024x2048) hz, View.ld_unit_zero (S := S1x2048) hz]

/-- At a middle step the body leaves, in the accumulator holding xs, xs plus the product of the two loaded tiles. -/
theorem scratch_B (c : Dev nD) (i : grid0.Coords) (a3 : Memref sig .tc .vmem S1024x512 .bf16) (h3 : a3.IsWhole)
    (a4 : Memref sig .tc .vmem S512x2048 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : ¬cond0_0 i) (hc1 : ¬cond0_1 i) (x0 : Vec F S1024x512 .bf16) (x1 : Vec F S512x2048 .bf16) (x2 : Vec F S1x2048 .f32) (xs : Vec F S1024x2048 .f32) :
    sout0_B_0 c i a3 h3 a4 h4 a5 h5 a6 h6 a7 h7 hc0 hc1 x0 x1 x2 xs = k0_pay2 xs x0 x1 := by
  unfold sout0_B_0
  rw [View.read_writes_eq_canon _ _ _ (scover0_B_0 c i a3 h3 a4 h4 a5 h5 a6 h6 a7 h7 hc0 hc1 x0 x1 x2 xs)]
  unfold kernelRun0_B
  dsimp only
  rw [View.canon_unit_zero hz]
  simp only [View.readAt_eq_ld, h3.read_unread, h4.read_unread, h7.read_unread, View.ld_unit_zero (S := S1024x512) hz, View.ld_unit_zero (S := S512x2048) hz, View.ld_unit_zero (S := S1024x2048) hz, View.ld_unit_zero (S := S1x2048) hz]

/-- At a last step the accumulator is left as at a middle step: what it held plus the product of the two tiles. -/
theorem scratch_C (c : Dev nD) (i : grid0.Coords) (a3 : Memref sig .tc .vmem S1024x512 .bf16) (h3 : a3.IsWhole)
    (a4 : Memref sig .tc .vmem S512x2048 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : ¬cond0_0 i) (hc1 : cond0_1 i) (x0 : Vec F S1024x512 .bf16) (x1 : Vec F S512x2048 .bf16) (x2 : Vec F S1x2048 .f32) (xs : Vec F S1024x2048 .f32) :
    sout0_C_0 c i a3 h3 a4 h4 a5 h5 a6 h6 a7 h7 hc0 hc1 x0 x1 x2 xs = k0_pay2 xs x0 x1 := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h7.read_unread, View.ld_unit_zero (S := S1024x512) hz, View.ld_unit_zero (S := S512x2048) hz, View.ld_unit_zero (S := S1024x2048) hz, View.ld_unit_zero (S := S1x2048) hz]

/-- At a last step the output tile is left at the epilogue of the updated accumulator: the accumulator is read back
    after its store, the bias row added along the rows, and the sum scaled. -/
theorem out_C (c : Dev nD) (i : grid0.Coords) (a3 : Memref sig .tc .vmem S1024x512 .bf16) (h3 : a3.IsWhole)
    (a4 : Memref sig .tc .vmem S512x2048 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : ¬cond0_0 i) (hc1 : cond0_1 i) (x0 : Vec F S1024x512 .bf16) (x1 : Vec F S512x2048 .bf16) (x2 : Vec F S1x2048 .f32) (xs : Vec F S1024x2048 .f32) :
    out0_C_3 c i a3 h3 a4 h4 a5 h5 a6 h6 a7 h7 hc0 hc1 x0 x1 x2 xs = k0_pay3 x2 (k0_pay2 xs x0 x1) := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz, View.readCov_unit_zero (S := S1024x2048) _ hz]
  simp only [View.readAt_eq_ld, h3.read_unread, h4.read_unread, h5.read_unread, h7.read_unread, View.ld_unit_zero (S := S1024x512) hz, View.ld_unit_zero (S := S512x2048) hz, View.ld_unit_zero (S := S1024x2048) hz, View.ld_unit_zero (S := S1x2048) hz]

end Cert.KernelIdeal.Pieces

end
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.Payload.lean ====
/-
  The three values a grid step computes, read entry by entry over the extended reals.

  * the zero block: every entry is 0;
  * the accumulator update: entry (p, q) of the new accumulator is the old entry plus the sum over the 512 contraction
    positions k of the x tile at (p, k) times the w tile at (k, q) — the matrix unit's product into a zero accumulator
    is that plain sum, and the changes of float format on the way in are the identity;
  * the epilogue: entry (p, q) of the output tile is (accumulator (p, q) + bias row (0, q)) · scale — the bias row is
    repeated along the rows, the scale is the same word in every entry.
-/
import proofs.«131412_j37280316129794_2_alg».proof.Proof.Gen.KernelIdeal.Skeleton
import proofs.«131412_j37280316129794_2_alg».proof.Proof.LibDotPlain
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The tile product's dimension numbers are those of a plain matrix product. -/
theorem dot_plain : DotPlain.IsPlain (M := 1024) (K := 512) (N := 2048) dot_S1024x512_S512x2048_S1024x2048_1_0_0_1_n_n :=
  ⟨rfl, rfl, rfl, rfl, rfl, rfl⟩

/-- The zero block's entries are 0. -/
theorem zero_apply (y : S1024x2048.Idx) : k0_pay1 (F := Ideal) y = 0 := by
  unfold k0_pay1
  rw [shapeCast_self]
  exact Ideal.ofBits_zero_f32

/-- The accumulator update at (p, q): the old entry plus the tile product's sum over the contraction positions. -/
theorem update_apply (acc : Vec Ideal S1024x2048 .f32) (xt : Vec Ideal S1024x512 .bf16) (wt : Vec Ideal S512x2048 .bf16)
    (p : Fin 1024) (q : Fin 2048) :
    k0_pay2 (F := Ideal) acc xt wt (ix2 p q) = acc (ix2 p q) + ∑ k : Fin 512, xt (ix2 p k) * wt (ix2 k q) := by
  unfold k0_pay2
  simp only [shapeCast_self]
  exact congrArg (acc (ix2 p q) + ·) (DotPlain.matmul_zero_apply dot_plain none xt wt (ix2 p q))

/-- The epilogue at (p, q): the accumulator's entry plus the bias row's entry q, times the scale. -/
theorem epilogue_apply (bias : Vec Ideal S1x2048 .f32) (acc : Vec Ideal S1024x2048 .f32) (p : Fin 1024) (q : Fin 2048) :
    k0_pay3 (F := Ideal) bias acc (ix2 p q)
      = (acc (ix2 p q) + bias (ix2 (0 : Fin 1) q)) * Ideal.ofBits .f32 0x3BEBEDFA#32 := by
  unfold k0_pay3
  simp only [shapeCast_self]
  have hb : broadcastTo S1024x2048 bias broadcasts_S1x2048_S1024x2048 (ix2 p q) = bias (ix2 (0 : Fin 1) q) :=
    broadcastTo_apply bias broadcasts_S1x2048_S1024x2048 (ix2 p q) (ix2 (0 : Fin 1) q) (fun a => by
      match a with
      | ⟨0, _⟩ => rfl
      | ⟨1, _⟩ => rfl)
  show (acc (ix2 p q) + broadcastTo S1024x2048 bias broadcasts_S1x2048_S1024x2048 (ix2 p q)) * _ = _
  rw [hb]
  rfl

end Cert.KernelIdeal.Payload

end
-- ==== Proof.Blocks.lean ====
/-
  Where a grid point's tiles sit in the argument arrays.

  Grid point t (0 ≤ t < 64) has coordinates (t / 16, t / 8 mod 2, t mod 8): a row block of 1024 rows, a column block of
  2048 columns, a contraction block of 512 positions. Its x tile is rows 1024·(t / 16) … and columns 512·(t mod 8) … of
  x; its w tile is rows 512·(t mod 8) … and columns 2048·(t / 8 mod 2) … of w; its bias row is entries
  2048·(t / 8 mod 2) … of b; its output tile is rows 1024·(t / 16) … and columns 2048·(t / 8 mod 2) … of the result.
  Before the tiled region the program only changes the float format of x and w (the identity on extended reals) and
  views the bias vector as a one-row array (the same entries), so each tile entry is an entry of an argument.
-/
import proofs.«131412_j37280316129794_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-- The block indices of the four windows at a grid point, decided over the 64 points. -/
theorem idx_facts : ∀ t : Fin cfg0.N,
    win0_0.index t (0 : Fin 2) = t.val / 16 ∧ win0_0.index t (1 : Fin 2) = t.val % 8
    ∧ win0_1.index t (0 : Fin 2) = t.val % 8 ∧ win0_1.index t (1 : Fin 2) = t.val / 8 % 2
    ∧ win0_2.index t (0 : Fin 2) = 0 ∧ win0_2.index t (1 : Fin 2) = t.val / 8 % 2
    ∧ win0_3.index t (0 : Fin 2) = t.val / 16 ∧ win0_3.index t (1 : Fin 2) = t.val / 8 % 2 :=
  (by decide +kernel : ∀ t : Fin grid0.N, _)

/-- The array the x window reads is x itself: the change of float format is the identity on extended reals. -/
theorem V_x (c : Dev nD) :
    (V m c main_v1 : S4096x4096.Idx → EReal) = m ((c : Thread nD τ).loc main_arg0) := by
  have e : (V m c main_v1 : S4096x4096.Idx → EReal)
      = truncf (F := Ideal) .bf16 (m ((c : Thread nD τ).loc main_arg0)) bitsLt_bf16_f32 := by
    dsimp only [Gen.V, Gen.hostOps0]; after_results
  rw [e]; rfl

/-- Likewise the array the w window reads is w. -/
theorem V_w (c : Dev nD) :
    (V m c main_v2 : S4096x4096.Idx → EReal) = m ((c : Thread nD τ).loc main_arg1) := by
  have e : (V m c main_v2 : S4096x4096.Idx → EReal)
      = truncf (F := Ideal) .bf16 (m ((c : Thread nD τ).loc main_arg1)) bitsLt_bf16_f32 := by
    dsimp only [Gen.V, Gen.hostOps0]; after_results
  rw [e]; rfl

/-- The one-row array the bias window reads is the bias vector reshaped. -/
theorem V_b (c : Dev nD) :
    (V m c main_v0 : S1x4096.Idx → EReal)
      = shapeCast S1x4096 (m ((c : Thread nD τ).loc main_arg2)) shapeCasts_S4096_S1x4096 := by
  dsimp only [Gen.V, Gen.hostOps0]; after_results; rfl

/-- Entry (p, k) of the x tile at point t is x at row 1024·(t / 16) + p and column 512·(t mod 8) + k. -/
theorem xtile_apply (c : Dev nD) (t : Fin cfg0.N) (p : Fin 1024) (k : Fin 512) (r kk : Fin 4096)
    (hr : r.val = 1024 * (t.val / 16) + p.val) (hk : kk.val = 512 * (t.val % 8) + k.val) :
    (iblk m c 0 t : Vec Ideal S1024x512 .bf16) (ix2 p k) = m ((c : Thread nD τ).loc main_arg0) (ix2 r kk) := by
  unfold iblk
  rw [View.read_apply]
  show V m c main_v1 (((cfg0.win 0).blk t).view.emb (ix2 p k)) = _
  rw [V_x]
  obtain ⟨e0, e1, -⟩ := idx_facts t
  refine congrArg _ (funext fun a => Fin.ext ?_)
  match a with
  | ⟨0, _⟩ => show win0_0.index t (0 : Fin 2) * 1024 + 1 * p.val = r.val; omega
  | ⟨1, _⟩ => show win0_0.index t (1 : Fin 2) * 512 + 1 * k.val = kk.val; omega

/-- Entry (k, q) of the w tile at point t is w at row 512·(t mod 8) + k and column 2048·(t / 8 mod 2) + q. -/
theorem wtile_apply (c : Dev nD) (t : Fin cfg0.N) (k : Fin 512) (q : Fin 2048) (kk s : Fin 4096)
    (hk : kk.val = 512 * (t.val % 8) + k.val) (hs : s.val = 2048 * (t.val / 8 % 2) + q.val) :
    (iblk m c 1 t : Vec Ideal S512x2048 .bf16) (ix2 k q) = m ((c : Thread nD τ).loc main_arg1) (ix2 kk s) := by
  unfold iblk
  rw [View.read_apply]
  show V m c main_v2 (((cfg0.win 1).blk t).view.emb (ix2 k q)) = _
  rw [V_w]
  obtain ⟨-, -, e2, e3, -⟩ := idx_facts t
  refine congrArg _ (funext fun a => Fin.ext ?_)
  match a with
  | ⟨0, _⟩ => show win0_1.index t (0 : Fin 2) * 512 + 1 * k.val = kk.val; omega
  | ⟨1, _⟩ => show win0_1.index t (1 : Fin 2) * 2048 + 1 * q.val = s.val; omega

/-- Entry (0, q) of the bias row at point t is b at position 2048·(t / 8 mod 2) + q. -/
theorem btile_apply (c : Dev nD) (t : Fin cfg0.N) (q : Fin 2048) (s : Fin 4096)
    (hs : s.val = 2048 * (t.val / 8 % 2) + q.val) :
    (iblk m c 2 t : Vec Ideal S1x2048 .f32) (ix2 (0 : Fin 1) q) = m ((c : Thread nD τ).loc main_arg2) (ix1 s) := by
  unfold iblk
  rw [View.read_apply]
  show V m c main_v0 (((cfg0.win 2).blk t).view.emb (ix2 (0 : Fin 1) q)) = _
  rw [V_b]
  obtain ⟨-, -, -, -, e4, e5, -⟩ := idx_facts t
  have hi : ((cfg0.win 2).blk t).view.emb (ix2 (0 : Fin 1) q) = ix2 (0 : Fin 1) s := by
    refine funext fun a => Fin.ext ?_
    match a with
    | ⟨0, _⟩ => show win0_2.index t (0 : Fin 2) * 1 + 1 * 0 = 0; omega
    | ⟨1, _⟩ => show win0_2.index t (1 : Fin 2) * 2048 + 1 * q.val = s.val; omega
  rw [hi]
  exact shapeCast_a_1a_apply _ shapeCasts_S4096_S1x4096 (0 : Fin 1) s

end Cert.KernelIdeal.Blocks

end
-- ==== Proof.Accum.lean ====
/-
  The tiled kernel's result array is the quantized linear layer of its arguments.

  Fix a row block and a column block, that is eight consecutive grid points t = 8·u, …, 8·u + 7. By induction on the
  point, after point t the carried accumulator's entry (p, q) is the partial sum, over the contraction positions below
  512·(t mod 8 + 1), of x(r, k) · w(k, s), where r and s are the row and column of the whole arrays that the entry
  stands for: the first point of the run starts from the zero block, every later point adds its block of 512 positions
  to what the point before left. At the last point of the run the partial sum is the whole inner product, and the
  output tile receives (inner product + bias entry) · scale. Only these last points write their tile back, and their
  tiles cover the result array, so the array ends holding the layer's result everywhere.
-/
import proofs.«131412_j37280316129794_2_alg».proof.Proof.Spec
import proofs.«131412_j37280316129794_2_alg».proof.Proof.Pieces
import proofs.«131412_j37280316129794_2_alg».proof.Proof.Payload
import proofs.«131412_j37280316129794_2_alg».proof.Proof.Blocks
import proofs.«131412_j37280316129794_2_alg».proof.Proof.Gen.KernelIdeal.Value

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen

variable (m : (ℓ : Loc nD τ sig) → Buf (Elt Ideal) ℓ) (ρ : Dev nD → PrngReg)

/-- The scale, as the kernel's epilogue and the reference both spell it. -/
abbrev scale : EReal := Ideal.ofBits .f32 0x3BEBEDFA#32

/-- What the result array is to hold: the layer's result of the three argument arrays. -/
abbrev result (c : Dev nD) : Buf (Elt Ideal) ((c : Thread nD τ).loc main_v3) :=
  Cert.Spec.result (m ((c : Thread nD τ).loc main_arg0)) (m ((c : Thread nD τ).loc main_arg1)) (m ((c : Thread nD τ).loc main_arg2)) scale

/-! ## One step, in terms of the step before -/

/-- After the first point of a run the accumulator is the zero block plus the point's tile product. -/
theorem acc_first (c : Dev nD) (t : Fin cfg0.N) (h0 : t.val % 8 = 0) (h1 : ¬t.val % 8 = 7) :
    (outsAt0 m c t.val t.isLt).2 = k0_pay2 (k0_pay1 (F := Ideal)) (iblk m c 0 t) (iblk m c 1 t) := by
  rw [outsAt0_A m c t h0 h1]
  dsimp only
  exact Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- After any later point it is what the point before left plus the point's tile product. -/
theorem acc_later (c : Dev nD) (t : Fin cfg0.N) (h0 : ¬t.val % 8 = 0) :
    (outsAt0 m c t.val t.isLt).2
      = k0_pay2 (F := Ideal) (outsAt0 m c (t.val - 1) (Nat.lt_of_le_of_lt (Nat.sub_le _ _) t.isLt)).2 (iblk m c 0 t) (iblk m c 1 t) := by
  by_cases h1 : t.val % 8 = 7
  · rw [outsAt0_C m c t h0 h1]
    dsimp only
    exact Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact Pieces.scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- At the last point of a run the output tile is the epilogue of the accumulator as that point leaves it. -/
theorem out_last (c : Dev nD) (t : Fin cfg0.N) (h0 : ¬t.val % 8 = 0) (h1 : t.val % 8 = 7) :
    (outsAt0 m c t.val t.isLt).1 = k0_pay3 (F := Ideal) (iblk m c 2 t) (outsAt0 m c t.val t.isLt).2 := by
  rw [acc_later m c t h0, outsAt0_C m c t h0 h1]
  dsimp only
  exact Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-! ## The accumulator is a partial sum -/

/-- A partial sum below the point's block, plus the point's tile product at (p, q), is the partial sum through the
    point's block: the tiles' entries are the arguments' entries at the block's contraction positions. -/
theorem tile_sum (c : Dev nD) (t : Fin cfg0.N) (p : Fin 1024) (q : Fin 2048) (r s : Fin 4096)
    (hr : r.val = 1024 * (t.val / 16) + p.val) (hs : s.val = 2048 * (t.val / 8 % 2) + q.val) (a : EReal)
    (ha : a = Cert.Spec.partialSum (m ((c : Thread nD τ).loc main_arg0)) (m ((c : Thread nD τ).loc main_arg1)) r s (512 * (t.val % 8)))
    (xt : Vec Ideal S1024x512 .bf16) (wt : Vec Ideal S512x2048 .bf16) (hx : xt = iblk m c 0 t) (hw : wt = iblk m c 1 t) :
    a + ∑ k : Fin 512, xt (ix2 p k) * wt (ix2 k q)
      = Cert.Spec.partialSum (m ((c : Thread nD τ).loc main_arg0)) (m ((c : Thread nD τ).loc main_arg1)) r s (512 * (t.val % 8 + 1)) := by
  subst ha
  refine Cert.Spec.partialSum_step (m ((c : Thread nD τ).loc main_arg0)) (m ((c : Thread nD τ).loc main_arg1)) r s (t.val % 8)
    (fun k => xt (ix2 p k)) (fun k => wt (ix2 k q)) (fun k => ?_)
  have hk : 512 * (t.val % 8) + k.val < 4096 := by have := k.isLt; omega
  have ex : xt (ix2 p k) = m ((c : Thread nD τ).loc main_arg0) (ix2 r ⟨_, hk⟩) := by
    rw [hx]; exact Blocks.xtile_apply m c t p k r ⟨_, hk⟩ hr rfl
  have ew : wt (ix2 k q) = m ((c : Thread nD τ).loc main_arg1) (ix2 ⟨_, hk⟩ s) := by
    rw [hw]; exact Blocks.wtile_apply m c t k q ⟨_, hk⟩ s rfl hs
  show xt (ix2 p k) * wt (ix2 k q) = _
  rw [ex, ew]
  exact (Cert.Spec.term_eq _ _ r s _ ⟨_, hk⟩ rfl).symm

/-- THE INVARIANT: after point n the accumulator's entry (p, q) is the partial sum of row r of x against column s of w
    over the contraction positions below 512·(n mod 8 + 1), r and s being the entry's row and column in the whole
    arrays. By induction on the point; the first point of a run needs nothing of the points before it. -/
theorem acc_eq (c : Dev nD) : ∀ (n : ℕ) (h : n < cfg0.N) (p : Fin 1024) (q : Fin 2048) (r s : Fin 4096),
    r.val = 1024 * (n / 16) + p.val → s.val = 2048 * (n / 8 % 2) + q.val →
    (outsAt0 m c n h).2 (ix2 p q) = Cert.Spec.partialSum (m ((c : Thread nD τ).loc main_arg0)) (m ((c : Thread nD τ).loc main_arg1)) r s (512 * (n % 8 + 1)) := by
  intro n
  induction n using Nat.strong_induction_on with
  | _ n ih =>
    intro h p q r s hr hs
    have hN : n < 64 := lt_of_lt_of_eq h (show cfg0.N = 64 from N_0)
    by_cases h0 : n % 8 = 0
    · have e : (outsAt0 m c n h).2 = k0_pay2 (k0_pay1 (F := Ideal)) (iblk m c 0 ⟨n, h⟩) (iblk m c 1 ⟨n, h⟩) :=
        acc_first m c ⟨n, h⟩ h0 (by show ¬n % 8 = 7; omega)
      rw [e]
      refine (Payload.update_apply _ _ _ p q).trans ?_
      refine tile_sum m c ⟨n, h⟩ p q r s hr hs _ ((Payload.zero_apply _).trans ?_) _ _ rfl rfl
      show (0 : EReal) = Cert.Spec.partialSum _ _ r s (512 * (n % 8))
      rw [h0, Nat.mul_zero]
      exact (Cert.Spec.partialSum_zero _ _ r s).symm
    · have e : (outsAt0 m c n h).2
          = k0_pay2 (F := Ideal) (outsAt0 m c (n - 1) (Nat.lt_of_le_of_lt (Nat.sub_le _ _) h)).2 (iblk m c 0 ⟨n, h⟩) (iblk m c 1 ⟨n, h⟩) :=
        acc_later m c ⟨n, h⟩ h0
      rw [e]
      refine (Payload.update_apply _ _ _ p q).trans ?_
      refine tile_sum m c ⟨n, h⟩ p q r s hr hs _ ?_ _ _ rfl rfl
      rw [ih (n - 1) (by omega) (Nat.lt_of_le_of_lt (Nat.sub_le _ _) h) p q r s (by omega) (by omega)]
      show Cert.Spec.partialSum _ _ r s (512 * ((n - 1) % 8 + 1)) = Cert.Spec.partialSum _ _ r s (512 * (n % 8))
      rw [show (n - 1) % 8 + 1 = n % 8 by omega]

/-! ## The output tile, the write-backs, the array -/

/-- At the last point of a run, entry y of the output tile is the layer's result at the entry's place in the array. -/
theorem out_tile (c : Dev nD) (t : Fin cfg0.N) (h7 : t.val % 8 = 7) (y : S1024x2048.Idx) (r s : Fin 4096)
    (hr : r.val = 1024 * (t.val / 16) + (y 0).val) (hs : s.val = 2048 * (t.val / 8 % 2) + (y 1).val) :
    (outsAt0 m c t.val t.isLt).1 y = result m c (ix2 r s) := by
  obtain ⟨p, q, rfl⟩ : ∃ (p : Fin 1024) (q : Fin 2048), y = ix2 p q := ⟨y 0, y 1, eq_ix2 y⟩
  rw [out_last m c t (by omega) h7]
  refine (Payload.epilogue_apply _ _ p q).trans ?_
  rw [acc_eq m c t.val t.isLt p q r s hr hs, Blocks.btile_apply m c t q s hs, show 512 * (t.val % 8 + 1) = 4096 by omega,
    Cert.Spec.partialSum_full]
  rfl

/-- WHAT A WRITING POINT WRITES BACK is its block of the layer's result. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have hN : t.val < 64 := lt_of_lt_of_eq t.isLt (show cfg0.N = 64 from N_0)
  show (cfg0.win 3).cut (grid0.coords t) ((dats m 0 c).after 3 t) = _
  rw [after0_3]
  funext y
  rw [View.read_apply]
  obtain ⟨-, -, -, -, -, -, e6, e7⟩ := Blocks.idx_facts t
  have hy0 : (y 0).val < 1024 := (y 0).isLt
  have hy1 : (y 1).val < 2048 := (y 1).isLt
  have hi : ((cfg0.win 3).blk t).view.emb y
      = ix2 (⟨1024 * (t.val / 16) + (y 0).val, by omega⟩ : Fin 4096) (⟨2048 * (t.val / 8 % 2) + (y 1).val, by omega⟩ : Fin 4096) := by
    refine funext fun a => Fin.ext ?_
    match a with
    | ⟨0, _⟩ => show win0_3.index t (0 : Fin 2) * 1024 + 1 * (y 0).val = 1024 * (t.val / 16) + (y 0).val; omega
    | ⟨1, _⟩ => show win0_3.index t (1 : Fin 2) * 2048 + 1 * (y 1).val = 2048 * (t.val / 8 % 2) + (y 1).val; omega
  rw [hi]
  exact out_tile m c t h7 y _ _ rfl rfl

/-- An index of the result array is in point t's block iff each coordinate is in the block's range on its axis. -/
theorem mem_blk (t : Fin cfg0.N) (i : S4096x4096.Idx) :
    i ∈ ((cfg0.win 3).blk t).view.set
      ↔ ∀ a : Fin 2, win0_3.index t a * S1024x2048.size a ≤ (i a).val ∧ (i a).val < win0_3.index t a * S1024x2048.size a + S1024x2048.size a := by
  show i ∈ ((View.whole main_v3).slice (win0_3.rect t)).set ↔ _
  rw [View.set_slice_whole, Rect.mem_set_unit]
  exact Iff.rfl

/-- Every index of the result array is in the block of a writing point: the last point of the run of its row block
    and column block. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 64 := N_0
  refine ⟨⟨((i 0).val / 1024 * 2 + (i 1).val / 2048) * 8 + 7, by rw [hN]; omega⟩, ?_, ?_⟩
  · exact (flush0_3 _).mpr (by show (((i 0).val / 1024 * 2 + (i 1).val / 2048) * 8 + 7) % 8 = 7; omega)
  · rw [mem_blk]
    obtain ⟨-, -, -, -, -, -, e6, e7⟩ := Blocks.idx_facts ⟨((i 0).val / 1024 * 2 + (i 1).val / 2048) * 8 + 7, by rw [hN]; omega⟩
    intro a
    match a with
    | ⟨0, _⟩ =>
      show win0_3.index _ (0 : Fin 2) * 1024 ≤ (i 0).val ∧ (i 0).val < win0_3.index _ (0 : Fin 2) * 1024 + 1024
      rw [e6]
      show (((i 0).val / 1024 * 2 + (i 1).val / 2048) * 8 + 7) / 16 * 1024 ≤ (i 0).val
        ∧ (i 0).val < (((i 0).val / 1024 * 2 + (i 1).val / 2048) * 8 + 7) / 16 * 1024 + 1024
      omega
    | ⟨1, _⟩ =>
      show win0_3.index _ (1 : Fin 2) * 2048 ≤ (i 1).val ∧ (i 1).val < win0_3.index _ (1 : Fin 2) * 2048 + 2048
      rw [e7]
      show (((i 0).val / 1024 * 2 + (i 1).val / 2048) * 8 + 7) / 8 % 2 * 2048 ≤ (i 1).val
        ∧ (i 1).val < (((i 0).val / 1024 * 2 + (i 1).val / 2048) * 8 + 7) / 8 % 2 * 2048 + 2048
      omega

/-- THE ARRAY after the run is the layer's result. -/
theorem final (c : Dev nD) : (dats m 0 c).arrAt 3 cfg0.N = result m c :=
  (dats m 0 c).arrAt_eq_of_cover 3 (result m c) (flushed_eq m c) cover

/-- The kernel's run, read: the result array at the layer's result of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Accum

end
-- ==== Proof.RefValue.lean ====
/-
  The whole-array reference computes the layer's result.

  The reference multiplies x by w in one matrix product, adds the bias vector repeated along the rows (first viewed as
  a one-row array, then repeated), and multiplies every entry by the scale. Read at an index (r, q) over the extended
  reals this is (∑ k, x(r, k) · w(k, q) + b(q)) · scale, the specification itself: the matrix product at an index is
  the sum over the 4096 contraction positions, each repetition reads its operand at the obvious index.
-/
import proofs.«131412_j37280316129794_2_alg».proof.Proof.Spec
import proofs.«131412_j37280316129794_2_alg».proof.Proof.Gen.ReferenceIdeal.Read

noncomputable section

open scoped BigOperators
open Idealize.ShloMosaic Idealize.ShloMosaic.ValueIdx

namespace Cert.ReferenceIdeal.RefValue

open Cert.ReferenceIdeal Cert.ReferenceIdeal.Gen Cert.ReferenceIdeal.Read

/-- The reference's result, as a function of the three arguments, is the layer's result. -/
theorem ref_eq (x0 x1 : (⟨S4096x4096, .f32⟩ : BufTy).Contents (Elt Ideal)) (x2 : (⟨S4096, .f32⟩ : BufTy).Contents (Elt Ideal)) :
    val_main_v5 (F := Ideal) x0 x1 x2 = Cert.Spec.result x0 x1 x2 (Ideal.ofBits .f32 0x3BEBEDFA#32) := by
  funext i
  have el : ∀ k : Fin 4096, lidx_main_v0 i k = ix2 (i 0) k := fun k => funext fun a => Fin.ext (by
    match a with
    | ⟨0, _⟩ => rfl
    | ⟨1, _⟩ => rfl)
  have er : ∀ k : Fin 4096, ridx_main_v0 i k = ix2 k (i 1) := fun k => funext fun a => Fin.ext (by
    match a with
    | ⟨0, _⟩ => rfl
    | ⟨1, _⟩ => rfl)
  have eb : idx_main_v1 (idx_main_v2 i) = ix1 (i 1) := funext fun a => Fin.ext (by
    match a with
    | ⟨0, _⟩ => rfl)
  rw [val_main_v5_apply, val_main_v3_apply, val_main_v0_apply, val_main_v2_apply, val_main_v1_apply, val_main_v4_apply,
    val_main_cst_apply]
  simp only [el, er, eb]
  rfl

end Cert.ReferenceIdeal.RefValue

end
-- ==== Proof.lean ====
/-
  A tiled quantized linear layer against its whole-array reference, over the extended reals.

  The kernel computes ((x · w) + b) · scale for x, w of shape [4096, 4096] and a bias b of length 4096, tile by tile:
  the result is cut into 4 x 2 tiles of [1024, 2048], and each tile's inner products are accumulated over eight blocks
  of 512 contraction positions in a carried accumulator, the bias and the scale being applied after the last block. The
  reference computes the same expression with one whole matrix product. The two agree because a sum over 4096
  positions is the sum of its eight consecutive blocks of 512 — addition of extended reals is commutative and
  associative, so no entry needs to be finite — and because the bias entry and the scale enter both sides in the same
  way (the scale is the same binary word in both programs; the changes of float format on the kernel's inputs are the
  identity on extended reals).

  Modules: Spec (the result as one function, partial sums), Pieces (what a grid step leaves in its buffers), Payload
  (a step's values entry by entry), Blocks (where a step's tiles sit in the arguments), Accum (the accumulator is a
  partial sum; the result array), RefValue (the reference is the specification).
-/
import proofs.«131412_j37280316129794_2_alg».proof.Defs
import proofs.«131412_j37280316129794_2_alg».proof.Proof.Gen.Kernel
import proofs.«131412_j37280316129794_2_alg».proof.Proof.Gen.Kernel.Skeleton
import proofs.«131412_j37280316129794_2_alg».proof.Proof.Gen.Kernel.Launch
import proofs.«131412_j37280316129794_2_alg».proof.Proof.Gen.Kernel.Points
import proofs.«131412_j37280316129794_2_alg».proof.Proof.Gen.Kernel.Frame
import proofs.«131412_j37280316129794_2_alg».proof.Proof.Gen.KernelIdeal
import proofs.«131412_j37280316129794_2_alg».proof.Proof.Gen.KernelIdeal.Skeleton
import proofs.«131412_j37280316129794_2_alg».proof.Proof.Gen.KernelIdeal.Launch
import proofs.«131412_j37280316129794_2_alg».proof.Proof.Gen.KernelIdeal.Points
import proofs.«131412_j37280316129794_2_alg».proof.Proof.Gen.KernelIdeal.Frame
import proofs.«131412_j37280316129794_2_alg».proof.Proof.Gen.ReferenceIdeal
import proofs.«131412_j37280316129794_2_alg».proof.Proof.Gen.Pre_finite_inputs
import proofs.«131412_j37280316129794_2_alg».proof.Proof.Gen.KernelIdeal.Value
import proofs.«131412_j37280316129794_2_alg».proof.Proof.Gen.ReferenceIdeal.Run
import proofs.«131412_j37280316129794_2_alg».proof.Proof.Gen.ReferenceIdeal.Read
import proofs.«131412_j37280316129794_2_alg».proof.Proof.Accum
import proofs.«131412_j37280316129794_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of whole-array operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- Both programs end with the layer's result of arguments that agree: the kernel's result array by the accumulation
    over the contraction blocks, the reference's by reading its operations at an index. -/
theorem algebraic : Cert.algebraic_KernelIdeal_ReferenceIdeal := by
  intro m ρ m' ρ' _ hagree
  refine ⟨fun c => Cert.KernelIdeal.Accum.result m c, Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
